-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x1600000 : Shape := ⟨2, ![2, 1600000]⟩
abbrev S1600000 : Shape := ⟨1, ![1600000]⟩
abbrev S64x128 : Shape := ⟨2, ![64, 128]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64x128 .f32) (main_arg6 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x128 .f32 := Host.absf main_arg5
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S50000x64 .f32) (main_arg1 : IVec S2x1600000 32) (main_arg2 : FVec F S1600000 .f32) (main_arg3 : FVec F S64x128 .f32) (main_arg4 : FVec F S64 .f32) (main_arg5 : FVec F S64x128 .f32) (main_arg6 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S64x128 .f32 := Host.absf main_arg3
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_v13 main_v16
-- ==== Kernel.lean ====
abbrev S50000x64 : Shape := ⟨2, ![50000, 64]⟩
abbrev S2x1600000 : Shape := ⟨2, ![2, 1600000]⟩
abbrev S1600000 : Shape := ⟨1, ![1600000]⟩
abbrev S64x128 : Shape := ⟨2, ![64, 128]⟩
abbrev S64 : Shape := ⟨1, ![64]⟩
abbrev S1x1600000 : Shape := ⟨2, ![1, 1600000]⟩
abbrev S_ : Shape := ⟨0, ![]⟩
abbrev S50000 : Shape := ⟨1, ![50000]⟩
abbrev S1600000x1 : Shape := ⟨2, ![1600000, 1]⟩
abbrev S1600000x64 : Shape := ⟨2, ![1600000, 64]⟩
abbrev S50000x1 : Shape := ⟨2, ![50000, 1]⟩
abbrev S128x64 : Shape := ⟨2, ![128, 64]⟩
abbrev S1x64 : Shape := ⟨2, ![1, 64]⟩
abbrev S2000x64 : Shape := ⟨2, ![2000, 64]⟩
abbrev S2000x128 : Shape := ⟨2, ![2000, 128]⟩

abbrev nBuf : Space → Nat
  | .hbm => 67
  | .vmem => 16
  | .smem => 0
  | _ => 0

abbrev bufTy : (tb : Table) → Fin (tcTables nBuf tb) → BufTy
  | .hbm, ⟨0, _⟩ => ⟨S50000x64, .f32⟩
  | .hbm, ⟨1, _⟩ => ⟨S2x1600000, .i32⟩
  | .hbm, ⟨2, _⟩ => ⟨S1600000, .f32⟩
  | .hbm, ⟨3, _⟩ => ⟨S64x128, .f32⟩
  | .hbm, ⟨4, _⟩ => ⟨S64, .f32⟩
  | .hbm, ⟨5, _⟩ => ⟨S64x128, .f32⟩
  | .hbm, ⟨6, _⟩ => ⟨S64, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .f32⟩
  | .hbm, ⟨12, _⟩ => ⟨S1600000, .f32⟩
  | .hbm, ⟨13, _⟩ => ⟨S_, .f32⟩
  | .hbm, ⟨14, _⟩ => ⟨S50000, .f32⟩
  | .hbm, ⟨15, _⟩ => ⟨S1600000x1, .i32⟩
  | .hbm, ⟨16, _⟩ => ⟨S50000, .f32⟩
  | .hbm, ⟨17, _⟩ => ⟨S_, .f32⟩
  | .hbm, ⟨18, _⟩ => ⟨S50000, .f32⟩
  | .hbm, ⟨19, _⟩ => ⟨S50000, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000x64, .f32⟩
  | .hbm, ⟨32, _⟩ => ⟨S1600000x1, .f32⟩
  | .hbm, ⟨33, _⟩ => ⟨S1600000x64, .f32⟩
  | .hbm, ⟨34, _⟩ => ⟨S1600000x64, .f32⟩
  | .hbm, ⟨35, _⟩ => ⟨S_, .f32⟩
  | .hbm, ⟨36, _⟩ => ⟨S50000x64, .f32⟩
  | .hbm, ⟨37, _⟩ => ⟨S1600000x1, .i32⟩
  | .hbm, ⟨38, _⟩ => ⟨S50000x64, .f32⟩
  | .hbm, ⟨39, _⟩ => ⟨S50000x1, .f32⟩
  | .hbm, ⟨40, _⟩ => ⟨S50000x64, .f32⟩
  | .hbm, ⟨41, _⟩ => ⟨S50000x64, .f32⟩
  | .hbm, ⟨42, _⟩ => ⟨S128x64, .f32⟩
  | .hbm, ⟨43, _⟩ => ⟨S1x64, .f32⟩
  | .hbm, ⟨44, _⟩ => ⟨S50000x64, .f32⟩
  | .hbm, ⟨45, _⟩ => ⟨S_, .i32⟩
  | .hbm, ⟨46, _⟩ => ⟨S1600000, .i32⟩
  | .hbm, ⟨47, _⟩ => ⟨S1600000, .i1⟩
  | .hbm, ⟨48, _⟩ => ⟨S_, .i32⟩
  | .hbm, ⟨49, _⟩ => ⟨S1600000, .i32⟩
  | .hbm, ⟨50, _⟩ => ⟨S1600000, .i32⟩
  | .hbm, ⟨51, _⟩ => ⟨S1600000, .i32⟩
  | .hbm, ⟨52, _⟩ => ⟨S1600000x1, .i32⟩
  | .hbm, ⟨53, _⟩ => ⟨S1600000x64, .f32⟩
  | .hbm, ⟨54, _⟩ => ⟨S1600000x1, .f32⟩
  | .hbm, ⟨55, _⟩ => ⟨S1600000x64, .f32⟩
  | .hbm, ⟨56, _⟩ => ⟨S1600000x64, .f32⟩
  | .hbm, ⟨57, _⟩ => ⟨S_, .f32⟩
  | .hbm, ⟨58, _⟩ => ⟨S50000x64, .f32⟩
  | .hbm, ⟨59, _⟩ => ⟨S1600000x1, .i32⟩
  | .hbm, ⟨60, _⟩ => ⟨S50000x64, .f32⟩
  | .hbm, ⟨61, _⟩ => ⟨S50000x1, .f32⟩
  | .hbm, ⟨62, _⟩ => ⟨S50000x64, .f32⟩
  | .hbm, ⟨63, _⟩ => ⟨S50000x64, .f32⟩
  | .hbm, ⟨64, _⟩ => ⟨S128x64, .f32⟩
  | .hbm, ⟨65, _⟩ => ⟨S1x64, .f32⟩
  | .hbm, ⟨66, _⟩ => ⟨S50000x64, .f32⟩
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S128x64, .f32⟩
  | .local _ .vmem, ⟨5, _⟩ => ⟨S1x64, .f32⟩
  | .local _ .vmem, ⟨6, _⟩ => ⟨S2000x64, .f32⟩
  | .local _ .vmem, ⟨7, _⟩ => ⟨S2000x64, .f32⟩
  | .local _ .vmem, ⟨8, _⟩ => ⟨S2000x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S128x64, .f32⟩
  | .local _ .vmem, ⟨13, _⟩ => ⟨S1x64, .f32⟩
  | .local _ .vmem, ⟨14, _⟩ => ⟨S2000x64, .f32⟩
  | .local _ .vmem, ⟨15, _⟩ => ⟨S2000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_1 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_5 : Ref sig .tc := ⟨.hbm, 45, rfl⟩
abbrev main_v31 : Ref sig .tc := ⟨.hbm, 46, rfl⟩
abbrev main_v32 : Ref sig .tc := ⟨.hbm, 47, rfl⟩
abbrev main_c_6 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_7 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2000x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S50000 : S_.BroadcastsInDim S50000 (![] : Fin 0 → Fin S50000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S50000x64 : S_.BroadcastsInDim S50000x64 (![] : Fin 0 → Fin S50000x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  transposes_S64x128_S128x64_1_0 : S64x128.Transposes [1, 0] S128x64
  shapeCasts_S64_S1x64 : S64.ShapeCasts S1x64
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  concatenates_S2000x64_S2000x64_S2000x128_d1 : Shape.Concatenates [S2000x64, S2000x64] S2000x128 1
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  scatter_S50000_S1600000x1_S1600000_n_0_0_1_wf : ScatterDims.WF S50000 S1600000x1 S1600000 [] [0] [0] 1
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S50000x64.size a
  hwx0_0 : ∀ i : grid0.Coords, EltTy.bits .f32 = 32 ∨ (Rect.block (s := S50000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S50000x64.size a
  hwx0_1 : ∀ i : grid0.Coords, EltTy.bits .f32 = 32 ∨ (Rect.block (s := S50000x64) S2000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x64.size a ≤ S50000x64.size a
  hwx0_4 : ∀ i : grid0.Coords, EltTy.bits .f32 = 32 ∨ (Rect.block (s := S50000x64) S2000x64.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S50000x64.size a
  hwx1_0 : ∀ i : grid1.Coords, EltTy.bits .f32 = 32 ∨ (Rect.block (s := S50000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S50000x64.size a
  hwx1_1 : ∀ i : grid1.Coords, EltTy.bits .f32 = 32 ∨ (Rect.block (s := S50000x64) S2000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x64.size a ≤ S50000x64.size a
  hwx1_4 : ∀ i : grid1.Coords, EltTy.bits .f32 = 32 ∨ (Rect.block (s := S50000x64) S2000x64.size (cc1_transform_4 i) (hinb1_4 i)).WholeWords (EltTy.packing .f32)

variable [Facts₀]

def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_arg0) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v28) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v29) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v30) S2000x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v30) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v47) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v48) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v49) S2000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x1600000 : Shape := ⟨2, ![2, 1600000]⟩
abbrev S1600000 : Shape := ⟨1, ![1600000]⟩
abbrev S64x128 : Shape := ⟨2, ![64, 128]⟩
abbrev S64 : Shape := ⟨1, ![64]⟩
abbrev S1x1600000 : Shape := ⟨2, ![1, 1600000]⟩
abbrev S_ : Shape := ⟨0, ![]⟩
abbrev S1600000x1 : Shape := ⟨2, ![1600000, 1]⟩
abbrev S1600000x64 : Shape := ⟨2, ![1600000, 64]⟩
abbrev S50000 : Shape := ⟨1, ![50000]⟩
abbrev S50000x1 : Shape := ⟨2, ![50000, 1]⟩
abbrev S50000x128 : Shape := ⟨2, ![50000, 128]⟩
abbrev S128x64 : Shape := ⟨2, ![128, 64]⟩
abbrev S1x64 : Shape := ⟨2, ![1, 64]⟩

abbrev nBuf : Space → Nat
  | .hbm => 85
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x1600000, .i32⟩
  | .hbm, ⟨2, _⟩ => ⟨S1600000, .f32⟩
  | .hbm, ⟨3, _⟩ => ⟨S64x128, .f32⟩
  | .hbm, ⟨4, _⟩ => ⟨S64, .f32⟩
  | .hbm, ⟨5, _⟩ => ⟨S64x128, .f32⟩
  | .hbm, ⟨6, _⟩ => ⟨S64, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .i32⟩
  | .hbm, ⟨12, _⟩ => ⟨S1600000, .i32⟩
  | .hbm, ⟨13, _⟩ => ⟨S1600000, .i1⟩
  | .hbm, ⟨14, _⟩ => ⟨S_, .i32⟩
  | .hbm, ⟨15, _⟩ => ⟨S1600000, .i32⟩
  | .hbm, ⟨16, _⟩ => ⟨S1600000, .i32⟩
  | .hbm, ⟨17, _⟩ => ⟨S1600000, .i32⟩
  | .hbm, ⟨18, _⟩ => ⟨S1600000x1, .i32⟩
  | .hbm, ⟨19, _⟩ => ⟨S1600000x64, .f32⟩
  | .hbm, ⟨20, _⟩ => ⟨S1600000x1, .f32⟩
  | .hbm, ⟨21, _⟩ => ⟨S1600000x64, .f32⟩
  | .hbm, ⟨22, _⟩ => ⟨S1600000x64, .f32⟩
  | .hbm, ⟨23, _⟩ => ⟨S_, .f32⟩
  | .hbm, ⟨24, _⟩ => ⟨S50000x64, .f32⟩
  | .hbm, ⟨25, _⟩ => ⟨S1600000x1, .i32⟩
  | .hbm, ⟨26, _⟩ => ⟨S50000x64, .f32⟩
  | .hbm, ⟨27, _⟩ => ⟨S_, .f32⟩
  | .hbm, ⟨28, _⟩ => ⟨S1600000, .f32⟩
  | .hbm, ⟨29, _⟩ => ⟨S_, .f32⟩
  | .hbm, ⟨30, _⟩ => ⟨S50000, .f32⟩
  | .hbm, ⟨31, _⟩ => ⟨S1600000x1, .i32⟩
  | .hbm, ⟨32, _⟩ => ⟨S50000, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S50000x1, .f32⟩
  | .hbm, ⟨37, _⟩ => ⟨S50000x64, .f32⟩
  | .hbm, ⟨38, _⟩ => ⟨S50000x64, .f32⟩
  | .hbm, ⟨39, _⟩ => ⟨S50000x128, .f32⟩
  | .hbm, ⟨40, _⟩ => ⟨S128x64, .f32⟩
  | .hbm, ⟨41, _⟩ => ⟨S50000x64, .f32⟩
  | .hbm, ⟨42, _⟩ => ⟨S1x64, .f32⟩
  | .hbm, ⟨43, _⟩ => ⟨S50000x64, .f32⟩
  | .hbm, ⟨44, _⟩ => ⟨S50000x64, .f32⟩
  | .hbm, ⟨45, _⟩ => ⟨S_, .f32⟩
  | .hbm, ⟨46, _⟩ => ⟨S50000x64, .f32⟩
  | .hbm, ⟨47, _⟩ => ⟨S50000x64, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x64, .f32⟩
  | .hbm, ⟨57, _⟩ => ⟨S1600000x1, .f32⟩
  | .hbm, ⟨58, _⟩ => ⟨S1600000x64, .f32⟩
  | .hbm, ⟨59, _⟩ => ⟨S1600000x64, .f32⟩
  | .hbm, ⟨60, _⟩ => ⟨S_, .f32⟩
  | .hbm, ⟨61, _⟩ => ⟨S50000x64, .f32⟩
  | .hbm, ⟨62, _⟩ => ⟨S1600000x1, .i32⟩
  | .hbm, ⟨63, _⟩ => ⟨S50000x64, .f32⟩
  | .hbm, ⟨64, _⟩ => ⟨S_, .f32⟩
  | .hbm, ⟨65, _⟩ => ⟨S1600000, .f32⟩
  | .hbm, ⟨66, _⟩ => ⟨S_, .f32⟩
  | .hbm, ⟨67, _⟩ => ⟨S50000, .f32⟩
  | .hbm, ⟨68, _⟩ => ⟨S1600000x1, .i32⟩
  | .hbm, ⟨69, _⟩ => ⟨S50000, .f32⟩
  | .hbm, ⟨70, _⟩ => ⟨S_, .f32⟩
  | .hbm, ⟨71, _⟩ => ⟨S50000, .f32⟩
  | .hbm, ⟨72, _⟩ => ⟨S50000, .f32⟩
  | .hbm, ⟨73, _⟩ => ⟨S50000x1, .f32⟩
  | .hbm, ⟨74, _⟩ => ⟨S50000x64, .f32⟩
  | .hbm, ⟨75, _⟩ => ⟨S50000x64, .f32⟩
  | .hbm, ⟨76, _⟩ => ⟨S50000x128, .f32⟩
  | .hbm, ⟨77, _⟩ => ⟨S128x64, .f32⟩
  | .hbm, ⟨78, _⟩ => ⟨S50000x64, .f32⟩
  | .hbm, ⟨79, _⟩ => ⟨S1x64, .f32⟩
  | .hbm, ⟨80, _⟩ => ⟨S50000x64, .f32⟩
  | .hbm, ⟨81, _⟩ => ⟨S50000x64, .f32⟩
  | .hbm, ⟨82, _⟩ => ⟨S_, .f32⟩
  | .hbm, ⟨83, _⟩ => ⟨S50000x64, .f32⟩
  | .hbm, ⟨84, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_call0_cst : Ref sig .tc := ⟨.hbm, 45, rfl⟩
abbrev main_call0_v0 : Ref sig .tc := ⟨.hbm, 46, rfl⟩
abbrev main_v32 : Ref sig .tc := ⟨.hbm, 47, rfl⟩
abbrev main_c_4 : Ref sig .tc := ⟨.hbm, 48, rfl⟩
abbrev main_v33 : Ref sig .tc := ⟨.hbm, 49, rfl⟩
abbrev main_v34 : Ref sig .tc := ⟨.hbm, 50, rfl⟩
abbrev main_c_5 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_6 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_7 : Ref sig .tc := ⟨.hbm, 64, rfl⟩
abbrev main_v46 : Ref sig .tc := ⟨.hbm, 65, rfl⟩
abbrev main_cst_8 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_9 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_call1_cst : Ref sig .tc := ⟨.hbm, 82, rfl⟩
abbrev main_call1_v0 : Ref sig .tc := ⟨.hbm, 83, rfl⟩
abbrev main_v61 : Ref sig .tc := ⟨.hbm, 84, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x64_0_1 : S1600000x1.BroadcastsInDim S1600000x64 (![0, 1] : Fin 2 → Fin S1600000x64.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  concatenates_S50000x64_S50000x64_S50000x128_d1 : Shape.Concatenates [S50000x64, S50000x64] S50000x128 1
  transposes_S64x128_S128x64_1_0 : S64x128.Transposes [1, 0] S128x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x64_S1600000x1_S1600000x64_1_0_n_n_0_1_164_wf : GatherDims.WF S50000x64 S1600000x1 S1600000x64 [1] [0] [] [0] [] 1 ![1, 64]
  scatter_S50000x64_S1600000x1_S1600000x64_1_0_0_1_wf : ScatterDims.WF S50000x64 S1600000x1 S1600000x64 [1] [0] [0] 1
  scatter_S50000_S1600000x1_S1600000_n_0_0_1_wf : ScatterDims.WF S50000 S1600000x1 S1600000 [] [0] [0] 1
  dot_S50000x128_S128x64_S50000x64_1_0_0_1_n_n_wf : DotDims.WF S50000x128 S128x64 S50000x64 [1] [0] [0] [1] [] []

variable [Facts₀]

def gather_S50000x64_S1600000x1_S1600000x64_1_0_n_n_0_1_164 : GatherDims S50000x64 S1600000x1 S1600000x64 where
  offsetDims := [1]
  collapsedSliceDims := [0]
  operandBatchingDims := []
  startIndicesBatchingDims := []
  startIndexMap := [0]
  indexVectorDim := 1
  sliceSizes := ![1, 64]
  wf := gather_S50000x64_S1600000x1_S1600000x64_1_0_n_n_0_1_164_wf
def scatter_S50000x64_S1600000x1_S1600000x64_1_0_0_1 : ScatterDims S50000x64 S1600000x1 S1600000x64 where
  updateWindowDims := [1]
  insertedWindowDims := [0]
  scatterDimsToOperandDims := [0]
  indexVectorDim := 1
  wf := scatter_S50000x64_S1600000x1_S1600000x64_1_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KernelBoundary.lean ====
/-
  The idealized kernel program's run, read at its last segment boundary.

  @main is four segments — a stretch of host operations, the first layer's tiled dense kernel, a second stretch of host
  operations, the second layer's kernel — and the buffer contents at each boundary are a fold from the launch memory: a
  stretch applies its operations, a region replaces its arrays by what its write-backs leave. Every weakly fair execution
  terminates, and in its final memory every buffer that outlives the regions holds the last boundary's contents. The
  result array and the unchanged arguments are both read off this one statement.
-/
import proofs.«120752_j51384988729581_1_alg».proof.Proof.Gen.KernelIdeal.Frame

set_option maxRecDepth 16384

noncomputable section

namespace Cert.KernelIdeal.Boundary

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of @main terminates, nothing faulting, and every
    buffer outside the regions' scoped staging ends at the contents of the last boundary of the fold. -/
theorem run_last : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

end Cert.KernelIdeal.Boundary

end
-- ==== Proof.LibReciprocalScale.lean ====
/-
  Scaling by a reciprocal is dividing, on the extended reals, whenever the divisor is not zero.

  The ideal quotient `Ideal.div x y` is `x * y⁻¹` off `y = 0` (with `⊤⁻¹ = ⊥⁻¹ = 0`). So for `c ≠ 0` the
  reciprocal `Ideal.div 1 c` is `c⁻¹` and `a * Ideal.div 1 c = a * c⁻¹ = Ideal.div a c` for EVERY extended real
  `a` — no finiteness of `a` or of `c` is used. A count floored at one, `max n 1`, is never zero, so a sum
  multiplied by the reciprocal of such a floored count is that sum divided by it: a scatter-"mean" written either way
  is one function.
-/
import Idealize.ShloMosaic.PureOps.Ideal.Laws
import Idealize.ShloMosaic.Lib.IdealHost

namespace Cert.LibReciprocalScale

open Idealize.ShloMosaic

/-- For a divisor that is not zero, multiplying by its ideal reciprocal is the ideal division, at every extended real. -/
theorem mul_div_one (a c : EReal) (hc : c ≠ 0) : a * Ideal.div 1 c = Ideal.div a c := by
  unfold Ideal.div
  rw [if_neg hc, if_neg hc, one_mul]

/-- A value floored at one is not zero. -/
theorem max_one_ne_zero (x : EReal) : max x 1 ≠ 0 :=
  ne_of_gt (lt_of_lt_of_le zero_lt_one (le_max_right x 1))

/-- A sum scaled by the reciprocal of a count floored at one is the sum divided by the floored count. -/
theorem mul_div_one_max (a n : EReal) : a * Ideal.div 1 (max n 1) = Ideal.div a (max n 1) :=
  mul_div_one a (max n 1) (max_one_ne_zero n)

end Cert.LibReciprocalScale
-- ==== Proof.AggScale.lean ====
/-
  The one arithmetic difference between the two programs, at the level of whole arrays.

  Both programs sum, per node, the weighted features of its neighbours (`S`), and count the node's edges, floored at
  one (`c = max cnt 1`). One program divides `S` by `c` broadcast along the feature axis; the other first forms the
  reciprocals `1 / c` once, then multiplies `S` by them broadcast the same way. Entry by entry this is
  `S · (1 / c) = S / c` with `c ≠ 0`, which holds at every extended real (LibReciprocalScale): neither `S` nor the count
  needs to be finite, so what the count's scatter-add produces is never opened.
-/
import proofs.«120752_j51384988729581_1_alg».proof.Proof.Gen.ReferenceIdeal.Read
import proofs.«120752_j51384988729581_1_alg».proof.Proof.LibReciprocalScale
import Idealize.ShloMosaic.Lib.IdealHost

noncomputable section

namespace Cert.AggScale

open Cert.ReferenceIdeal Cert.ReferenceIdeal.Gen Cert.ReferenceIdeal.Read Idealize.ShloMosaic Idealize.ShloMosaic.ValueIdx

/-- A per-node vector laid out as a column and broadcast along the 64 features. -/
abbrev spread (y : FVec Ideal S50000 .f32) : FVec Ideal S50000x64 .f32 :=
  broadcastInDim S50000x64 ![0, 1] bcast_S50000x1_S50000x64_0_1 (broadcastInDim S50000x1 ![0] bcast_S50000_S50000x1_0 y)

/-- Read at `(p, q)` it is the vector's entry `p`. -/
theorem spread_apply (y : FVec Ideal S50000 .f32) (i : S50000x64.Idx) : spread y i = y (idx_main_v23 (idx_main_v24 i)) := by
  unfold spread
  refine (broadcastInDim_apply _ bcast_S50000x1_S50000x64_0_1 _ i (idx_main_v24 i) (fun a => match a with
    | ⟨0, _⟩ => by show (i 0).val = if (50000 : Nat) = 1 then 0 else (i 0).val; rw [if_neg (by decide)]
    | ⟨1, _⟩ => by show 0 = if (1 : Nat) = 1 then 0 else (i 1).val; rw [if_pos rfl])).trans ?_
  exact broadcastInDim_apply _ bcast_S50000_S50000x1_0 y (idx_main_v24 i) (idx_main_v23 (idx_main_v24 i)) (fun a => match a with
    | ⟨0, _⟩ => by show (i 0).val = if (50000 : Nat) = 1 then 0 else (i 0).val; rw [if_neg (by decide)])

/-- The ones vector over the nodes (the floor, and the numerator of the reciprocals). -/
abbrev ones : FVec Ideal S50000 .f32 := val_main_v21 (F := Ideal)

/-- Edge counts floored at one. -/
abbrev floored (cnt : FVec Ideal S50000 .f32) : FVec Ideal S50000 .f32 := maximumf cnt ones

/-- The reciprocals of the floored counts, as the kernel's program forms them: ones divided by `max cnt 1`. -/
abbrev recip (cnt : FVec Ideal S50000 .f32) : FVec Ideal S50000 .f32 := Host.divf ones (floored cnt)

/-- Every entry of the ones vector is the extended real one. -/
theorem ones_apply (j : S50000.Idx) : ones j = 1 := by
  unfold ones
  rw [val_main_v21_apply, val_main_cst_3_apply]
  exact Ideal.ofBits_one_f32

/-- Scaling the neighbour sums by the broadcast reciprocals is dividing them by the broadcast floored counts, whatever
    the counts are. -/
theorem scale_eq_div (S : FVec Ideal S50000x64 .f32) (cnt : FVec Ideal S50000 .f32) :
    mulf S (spread (recip cnt)) = Host.divf S (spread (floored cnt)) := by
  funext i
  refine (mulf_apply S (spread (recip cnt)) i).trans ?_
  rw [spread_apply]
  refine Eq.trans ?_ (congrArg (Ideal.div (S i)) (spread_apply (floored cnt) i).symm)
  show S i * Ideal.div (ones _) (max (cnt _) (ones _)) = Ideal.div (S i) (max (cnt _) (ones _))
  rw [ones_apply]
  exact Cert.LibReciprocalScale.mul_div_one_max _ _

end Cert.AggScale

end
-- ==== Proof.LibConcatAt.lean ====
/-
  Concatenations and reversals read at an index given by its coordinates.

  For any element type and any extents:
    * a concatenation of a LIST of pieces along the rows (axis 0) or along the columns (axis 1) of
      a matrix, read at (p, l): piece k, whose span along the axis starts at `pre` (the extents
      of the pieces before it added up), at the index with the axis coordinate `pre` less;
    * a concatenation of TWO pieces along axis 1 or axis 2 of a rank-4 array, read at (a, p, c, e)
      or (a, b, p, e): the first piece at the same coordinates when p is below its extent, the
      second at the axis coordinate less the first extent otherwise;
    * a reversal along axis 1 or axis 2 of a rank-4 array: the operand at the mirrored coordinate
      on that axis (extent - 1 - coordinate), the other coordinates kept.
  Each is the library's general statement (Lib/Pipeline/Value.lean `concatenate_apply_piece`,
  `concatenate_pair_apply_left` / `_right`; PureOps/ShapeOps.lean `Host.reverse`) with the
  per-axis side conditions discharged once.
-/
import Idealize.ShloMosaic.Lib.Pipeline.Value
import Idealize.ShloMosaic.Lib.ValueIdx

namespace Cert.ConcatAt

open Idealize.ShloMosaic Idealize.ShloMosaic.ValueIdx

variable {α : Type}

/-- Pieces stacked along the ROWS of a matrix: row `p` falls in piece `k`, at its row `r = p - pre`. -/
theorem rows_piece {t0 t1 : ℕ} (xs : List ((s : Shape) × (s.Idx → α)))
    (h : Shape.Concatenates (xs.map (·.1)) (⟨2, ![t0, t1]⟩ : Shape) (0 : Fin 2))
    (p : Fin t0) (l : Fin t1) (k : ℕ) (hk : k < xs.length) {m : ℕ} (x₁ : (⟨2, ![m, t1]⟩ : Shape).Idx → α)
    (hxk : xs[k] = ⟨(⟨2, ![m, t1]⟩ : Shape), x₁⟩) (pre : ℕ)
    (hpre : (((xs.take k).map (·.1)).map fun s =>
      if h : s.rank = (⟨2, ![t0, t1]⟩ : Shape).rank then s.size ((0 : Fin 2).cast h.symm) else 0).sum = pre)
    (r : Fin m) (hr : pre + r.val = p.val) :
    concatenate (⟨2, ![t0, t1]⟩ : Shape) (0 : Fin 2) xs h (ix2 p l) = x₁ (ix2 r l) :=
  concatenate_apply_piece (t := (⟨2, ![t0, t1]⟩ : Shape)) (0 : Fin 2) xs h (ix2 p l) k hk _ x₁ hxk rfl pre hpre (ix2 r l)
    (fun b hb => by
      match b with
      | ⟨0, _⟩ => exact absurd rfl hb
      | ⟨1, _⟩ => rfl)
    (by exact hr)

/-- Pieces laid side by side along the COLUMNS of a matrix: column `q` falls in piece `k`, at its column `r = q - pre`. -/
theorem cols_piece {t0 t1 : ℕ} (xs : List ((s : Shape) × (s.Idx → α)))
    (h : Shape.Concatenates (xs.map (·.1)) (⟨2, ![t0, t1]⟩ : Shape) (1 : Fin 2))
    (p : Fin t0) (q : Fin t1) (k : ℕ) (hk : k < xs.length) {m : ℕ} (x₁ : (⟨2, ![t0, m]⟩ : Shape).Idx → α)
    (hxk : xs[k] = ⟨(⟨2, ![t0, m]⟩ : Shape), x₁⟩) (pre : ℕ)
    (hpre : (((xs.take k).map (·.1)).map fun s =>
      if h : s.rank = (⟨2, ![t0, t1]⟩ : Shape).rank then s.size ((1 : Fin 2).cast h.symm) else 0).sum = pre)
    (r : Fin m) (hr : pre + r.val = q.val) :
    concatenate (⟨2, ![t0, t1]⟩ : Shape) (1 : Fin 2) xs h (ix2 p q) = x₁ (ix2 p r) :=
  concatenate_apply_piece (t := (⟨2, ![t0, t1]⟩ : Shape)) (1 : Fin 2) xs h (ix2 p q) k hk _ x₁ hxk rfl pre hpre (ix2 p r)
    (fun b hb => by
      match b with
      | ⟨0, _⟩ => rfl
      | ⟨1, _⟩ => exact absurd rfl hb)
    (by exact hr)

/-- Two pieces along axis 1 of a rank-4 array, the coordinate in the FIRST. -/
theorem axis1_left {n0 n2 n3 m1 m2 t1 : ℕ} (x₁ : (⟨4, ![n0, m1, n2, n3]⟩ : Shape).Idx → α)
    (x₂ : (⟨4, ![n0, m2, n2, n3]⟩ : Shape).Idx → α)
    (h : Shape.Concatenates [(⟨4, ![n0, m1, n2, n3]⟩ : Shape), ⟨4, ![n0, m2, n2, n3]⟩] (⟨4, ![n0, t1, n2, n3]⟩ : Shape) (1 : Fin 4))
    (a : Fin n0) (p : Fin t1) (c : Fin n2) (e : Fin n3) (r : Fin m1) (hr : r.val = p.val) :
    concatenate (⟨4, ![n0, t1, n2, n3]⟩ : Shape) (1 : Fin 4) [⟨_, x₁⟩, ⟨_, x₂⟩] h (ix4 a p c e) = x₁ (ix4 a r c e) :=
  concatenate_pair_apply_left (t := (⟨4, ![n0, t1, n2, n3]⟩ : Shape)) (1 : Fin 4) x₁ x₂ h (ix4 a p c e) rfl (ix4 a r c e) (fun b => by
    match b with
    | ⟨0, _⟩ => rfl
    | ⟨1, _⟩ => exact hr
    | ⟨2, _⟩ => rfl
    | ⟨3, _⟩ => rfl)

/-- Two pieces along axis 1 of a rank-4 array, the coordinate in the SECOND. -/
theorem axis1_right {n0 n2 n3 m1 m2 t1 : ℕ} (x₁ : (⟨4, ![n0, m1, n2, n3]⟩ : Shape).Idx → α)
    (x₂ : (⟨4, ![n0, m2, n2, n3]⟩ : Shape).Idx → α)
    (h : Shape.Concatenates [(⟨4, ![n0, m1, n2, n3]⟩ : Shape), ⟨4, ![n0, m2, n2, n3]⟩] (⟨4, ![n0, t1, n2, n3]⟩ : Shape) (1 : Fin 4))
    (a : Fin n0) (p : Fin t1) (c : Fin n2) (e : Fin n3) (r : Fin m2) (hr : r.val + m1 = p.val) :
    concatenate (⟨4, ![n0, t1, n2, n3]⟩ : Shape) (1 : Fin 4) [⟨_, x₁⟩, ⟨_, x₂⟩] h (ix4 a p c e) = x₂ (ix4 a r c e) :=
  concatenate_pair_apply_right (t := (⟨4, ![n0, t1, n2, n3]⟩ : Shape)) (1 : Fin 4) x₁ x₂ h (ix4 a p c e) rfl rfl (ix4 a r c e) (fun b hb => by
    match b with
    | ⟨0, _⟩ => rfl
    | ⟨1, _⟩ => exact absurd rfl hb
    | ⟨2, _⟩ => rfl
    | ⟨3, _⟩ => rfl) (by exact hr)

/-- Two pieces along axis 2 of a rank-4 array, the coordinate in the FIRST. -/
theorem axis2_left {n0 n1 n3 m1 m2 t2 : ℕ} (x₁ : (⟨4, ![n0, n1, m1, n3]⟩ : Shape).Idx → α)
    (x₂ : (⟨4, ![n0, n1, m2, n3]⟩ : Shape).Idx → α)
    (h : Shape.Concatenates [(⟨4, ![n0, n1, m1, n3]⟩ : Shape), ⟨4, ![n0, n1, m2, n3]⟩] (⟨4, ![n0, n1, t2, n3]⟩ : Shape) (2 : Fin 4))
    (a : Fin n0) (b : Fin n1) (p : Fin t2) (e : Fin n3) (r : Fin m1) (hr : r.val = p.val) :
    concatenate (⟨4, ![n0, n1, t2, n3]⟩ : Shape) (2 : Fin 4) [⟨_, x₁⟩, ⟨_, x₂⟩] h (ix4 a b p e) = x₁ (ix4 a b r e) :=
  concatenate_pair_apply_left (t := (⟨4, ![n0, n1, t2, n3]⟩ : Shape)) (2 : Fin 4) x₁ x₂ h (ix4 a b p e) rfl (ix4 a b r e) (fun d => by
    match d with
    | ⟨0, _⟩ => rfl
    | ⟨1, _⟩ => rfl
    | ⟨2, _⟩ => exact hr
    | ⟨3, _⟩ => rfl)

/-- Two pieces along axis 2 of a rank-4 array, the coordinate in the SECOND. -/
theorem axis2_right {n0 n1 n3 m1 m2 t2 : ℕ} (x₁ : (⟨4, ![n0, n1, m1, n3]⟩ : Shape).Idx → α)
    (x₂ : (⟨4, ![n0, n1, m2, n3]⟩ : Shape).Idx → α)
    (h : Shape.Concatenates [(⟨4, ![n0, n1, m1, n3]⟩ : Shape), ⟨4, ![n0, n1, m2, n3]⟩] (⟨4, ![n0, n1, t2, n3]⟩ : Shape) (2 : Fin 4))
    (a : Fin n0) (b : Fin n1) (p : Fin t2) (e : Fin n3) (r : Fin m2) (hr : r.val + m1 = p.val) :
    concatenate (⟨4, ![n0, n1, t2, n3]⟩ : Shape) (2 : Fin 4) [⟨_, x₁⟩, ⟨_, x₂⟩] h (ix4 a b p e) = x₂ (ix4 a b r e) :=
  concatenate_pair_apply_right (t := (⟨4, ![n0, n1, t2, n3]⟩ : Shape)) (2 : Fin 4) x₁ x₂ h (ix4 a b p e) rfl rfl (ix4 a b r e) (fun d hd => by
    match d with
    | ⟨0, _⟩ => rfl
    | ⟨1, _⟩ => rfl
    | ⟨2, _⟩ => exact absurd rfl hd
    | ⟨3, _⟩ => rfl) (by exact hr)

/-- The one-element axis list does not hold another axis. -/
private theorem not_mem_single {N : ℕ} {a b : Fin N} (h : a.val ≠ b.val) : a ∉ [b] :=
  fun hm => Fin.ne_of_val_ne h (List.mem_singleton.mp hm)

/-- A rank-4 array reversed along axis 1 reads the mirrored coordinate there. -/
theorem reverse_axis1 {n0 n1 n2 n3 : ℕ} (v : (⟨4, ![n0, n1, n2, n3]⟩ : Shape).Idx → α)
    (a : Fin n0) (j : Fin n1) (c : Fin n2) (e : Fin n3) :
    Host.reverse (s := (⟨4, ![n0, n1, n2, n3]⟩ : Shape)) [(1 : Fin 4)] v (ix4 a j c e) = v (ix4 a j.rev c e) := by
  unfold Host.reverse
  refine congrArg v (funext fun d => ?_)
  match d with
  | ⟨0, _⟩ => exact if_neg (not_mem_single (N := 4) (b := 1) (show (0 : ℕ) ≠ 1 by omega))
  | ⟨1, _⟩ => exact if_pos (List.mem_singleton.mpr (Fin.ext rfl))
  | ⟨2, _⟩ => exact if_neg (not_mem_single (N := 4) (b := 1) (show (2 : ℕ) ≠ 1 by omega))
  | ⟨3, _⟩ => exact if_neg (not_mem_single (N := 4) (b := 1) (show (3 : ℕ) ≠ 1 by omega))

/-- A rank-4 array reversed along axis 2 reads the mirrored coordinate there. -/
theorem reverse_axis2 {n0 n1 n2 n3 : ℕ} (v : (⟨4, ![n0, n1, n2, n3]⟩ : Shape).Idx → α)
    (a : Fin n0) (b : Fin n1) (j : Fin n2) (e : Fin n3) :
    Host.reverse (s := (⟨4, ![n0, n1, n2, n3]⟩ : Shape)) [(2 : Fin 4)] v (ix4 a b j e) = v (ix4 a b j.rev e) := by
  unfold Host.reverse
  refine congrArg v (funext fun d => ?_)
  match d with
  | ⟨0, _⟩ => exact if_neg (not_mem_single (N := 4) (b := 2) (show (0 : ℕ) ≠ 2 by omega))
  | ⟨1, _⟩ => exact if_neg (not_mem_single (N := 4) (b := 2) (show (1 : ℕ) ≠ 2 by omega))
  | ⟨2, _⟩ => exact if_pos (List.mem_singleton.mpr (Fin.ext rfl))
  | ⟨3, _⟩ => exact if_neg (not_mem_single (N := 4) (b := 2) (show (3 : ℕ) ≠ 2 by omega))

end Cert.ConcatAt
-- ==== Proof.DenseSpec.lean ====
/-
  The dense half of one message-passing layer, as one function of whole arrays, index by index.

  A node's new feature row is relu([x | a] · Wᵀ + b): the node's own 64 features `x` joined, column-wise, with its 64
  aggregated neighbour features `a`; the 128 joined entries contracted against row `q` of the weight `W : [64, 128]`;
  the bias entry `b q` added; the result floored at zero. `R` is the number of rows: the whole graph's 50000 nodes for
  the reference, one tile of 2000 nodes for a grid point of the kernel — the function is the same at every `R`, which is
  what lets a tile's result be read as a block of the whole array's.
-/
import Idealize.ShloMosaic.PureOps.Ideal.Laws
import Idealize.ShloMosaic.Lib.ValueIdx

noncomputable section

namespace Cert.DenseSpec

open Idealize.ShloMosaic Idealize.ShloMosaic.ValueIdx

/-- Entry `(p, k)` of the column-wise join `[x | a]` of two 64-column matrices: `x` for `k < 64`, `a` at `k - 64` after. -/
def joined {R : Nat} (x a : (⟨2, ![R, 64]⟩ : Shape).Idx → EReal) (p : Fin R) (k : Fin 128) : EReal :=
  if h : k.val < 64 then x (ix2 p ⟨k.val, h⟩) else a (ix2 p ⟨k.val - 64, by omega⟩)

/-- relu([x | a] · Wᵀ + b) at row `p`, column `q`. -/
def denseAt {R : Nat} (x a : (⟨2, ![R, 64]⟩ : Shape).Idx → EReal) (W : (⟨2, ![64, 128]⟩ : Shape).Idx → EReal)
    (b : (⟨1, ![64]⟩ : Shape).Idx → EReal) (p : Fin R) (q : Fin 64) : EReal :=
  max ((∑ k : Fin 128, joined x a p k * W (ix2 q k)) + b (ix1 q)) 0

/-- The whole array: `denseAt` at every index. -/
def dense {R : Nat} (x a : (⟨2, ![R, 64]⟩ : Shape).Idx → EReal) (W : (⟨2, ![64, 128]⟩ : Shape).Idx → EReal)
    (b : (⟨1, ![64]⟩ : Shape).Idx → EReal) : (⟨2, ![R, 64]⟩ : Shape).Idx → EReal :=
  fun i => denseAt x a W b (i 0) (i 1)

theorem dense_ix2 {R : Nat} (x a : (⟨2, ![R, 64]⟩ : Shape).Idx → EReal) (W : (⟨2, ![64, 128]⟩ : Shape).Idx → EReal)
    (b : (⟨1, ![64]⟩ : Shape).Idx → EReal) (p : Fin R) (q : Fin 64) : dense x a W b (ix2 p q) = denseAt x a W b p q := rfl

/-- A tile of rows of the whole arrays gives the tile's rows of the result: row `r` of the tile starting at row `o` is
    row `o + r` of the whole. -/
theorem denseAt_tile {R T : Nat} (x a : (⟨2, ![R, 64]⟩ : Shape).Idx → EReal) (xt at' : (⟨2, ![T, 64]⟩ : Shape).Idx → EReal)
    (W : (⟨2, ![64, 128]⟩ : Shape).Idx → EReal) (b : (⟨1, ![64]⟩ : Shape).Idx → EReal) (r : Fin T) (p : Fin R)
    (hx : ∀ l : Fin 64, xt (ix2 r l) = x (ix2 p l)) (ha : ∀ l : Fin 64, at' (ix2 r l) = a (ix2 p l)) (q : Fin 64) :
    denseAt xt at' W b r q = denseAt x a W b p q := by
  unfold denseAt
  congr 2
  refine Finset.sum_congr rfl fun k _ => ?_
  congr 1
  unfold joined
  split
  · exact hx _
  · exact ha _

end Cert.DenseSpec

end
-- ==== Proof.JoinedColumns.lean ====
/-
  A column-wise concatenation of two 64-column matrices, read at row `p` and column `k < 128`, is the join
  `[x | a]` of the specification: the first matrix at `(p, k)` for `k < 64`, the second at `(p, k - 64)` after.
  One statement for every number of rows: the reference joins the whole arrays, the kernel joins one tile's blocks.
-/
import proofs.«120752_j51384988729581_1_alg».proof.Proof.LibConcatAt
import proofs.«120752_j51384988729581_1_alg».proof.Proof.DenseSpec

noncomputable section

namespace Cert.JoinedColumns

open Idealize.ShloMosaic Idealize.ShloMosaic.ValueIdx Cert.DenseSpec

theorem concat_joined {R : Nat} (x a : (⟨2, ![R, 64]⟩ : Shape).Idx → EReal)
    (h : Shape.Concatenates [(⟨2, ![R, 64]⟩ : Shape), (⟨2, ![R, 64]⟩ : Shape)] (⟨2, ![R, 128]⟩ : Shape) (1 : Fin 2))
    (p : Fin R) (k : Fin 128) :
    concatenate (⟨2, ![R, 128]⟩ : Shape) (1 : Fin 2) [⟨(⟨2, ![R, 64]⟩ : Shape), x⟩, ⟨(⟨2, ![R, 64]⟩ : Shape), a⟩] h (ix2 p k)
      = joined x a p k := by
  unfold joined
  split
  · rename_i hk
    exact Cert.ConcatAt.cols_piece [⟨(⟨2, ![R, 64]⟩ : Shape), x⟩, ⟨(⟨2, ![R, 64]⟩ : Shape), a⟩] h p k 0 (Nat.zero_lt_two) x rfl 0 rfl
      ⟨k.val, hk⟩ (by simp)
  · rename_i hk
    exact Cert.ConcatAt.cols_piece [⟨(⟨2, ![R, 64]⟩ : Shape), x⟩, ⟨(⟨2, ![R, 64]⟩ : Shape), a⟩] h p k 1 (Nat.one_lt_two) a rfl 64 rfl
      ⟨k.val - 64, by omega⟩ (by show 64 + (k.val - 64) = k.val; omega)

end Cert.JoinedColumns

end
-- ==== Proof.LibContractSum.lean ====
/-
  A matrix product with ONE contracted axis, into the zero accumulator, read at an output index on the extended reals.

  The product's entry at `j` is the sum, over the contraction index, of the left operand at `lhsIdx j ·` times the right
  operand at `rhsIdx j ·`. When one axis of extent `K` is contracted, the contraction index is its one coordinate, so the
  entry is a sum over `k : Fin K` of the operands at whatever indices the dimension record names there — given by the
  caller as two families `li`, `ri` with the two equations that say so. The statement does not depend on which axes of
  the operands are contracted: row by column, column by column, or any other single-axis contraction.
-/
import Idealize.ShloMosaic.PureOps.Ideal.Laws
import Idealize.ShloMosaic.Lib.ValueIdx

namespace Cert.LibContractSum

open Idealize.ShloMosaic Idealize.ShloMosaic.ValueIdx

/-- A `tpu.matmul` into the f32 zero splat, one contracted axis of extent `K`: at output index `j` it is
    `∑ k : Fin K, lhs (li k) * rhs (ri k)`, where `li k` / `ri k` are the operand indices the dimension record gives at
    `j` and contraction coordinate `k` (`hl`, `hr`). -/
theorem matmul_zero_sum {sl sr so : Shape} {φ₁ φ₂ : FTy} (D : DotDims sl sr so) (prec : Option ContractPrecision) (K : Nat)
    (hrank : D.contr.rank = 1) (hsize : D.contr.size ⟨0, by omega⟩ = K)
    (lhs : FVec Ideal sl φ₁) (rhs : FVec Ideal sr φ₂) (j : so.Idx) (li : Fin K → sl.Idx) (ri : Fin K → sr.Idx)
    (hl : ∀ k, D.lhsIdx j ((contrEquiv1 D K hrank hsize).symm k) = li k)
    (hr : ∀ k, D.rhsIdx j ((contrEquiv1 D K hrank hsize).symm k) = ri k) :
    FloatOps.matmul D prec lhs rhs (constant so .f32 0x00000000#32) j = ∑ k : Fin K, lhs (li k) * rhs (ri k) := by
  rw [Ideal.matmul_constant_zero_apply, ← Equiv.sum_comp (contrEquiv1 D K hrank hsize).symm]
  exact Finset.sum_congr rfl fun k _ => by rw [hl k, hr k]

end Cert.LibContractSum
-- ==== Proof.TilePayload.lean ====
/-
  What one grid point of either dense kernel stores, read at row `r` of the tile and column `q`.

  The body joins the tile's 2000 rows of node features and of aggregated features into 128 columns, multiplies by the
  staged `[128, 64]` weight into a zero accumulator (the bf16 casts of both operands are the identity on the extended
  reals), adds the staged bias row, and floors at zero. With the staged weight the transpose of `W` and the staged
  row the bias `b`, the stored entry is the specification's `denseAt` of the tile's blocks: a sum over the 128 joined
  columns, whichever kernel of the two.
-/
import proofs.«120752_j51384988729581_1_alg».proof.Proof.Gen.KernelIdeal.Skeleton
import proofs.«120752_j51384988729581_1_alg».proof.Proof.JoinedColumns
import proofs.«120752_j51384988729581_1_alg».proof.Proof.LibContractSum
import Idealize.ShloMosaic.Lib.Pipeline.Value

noncomputable section

namespace Cert.TilePayload

open Cert.KernelIdeal Cert.KernelIdeal.Gen Idealize.ShloMosaic Idealize.ShloMosaic.ValueIdx Cert.DenseSpec

/-- The tile product's left operand index keeps the output's row, whatever the contraction index. -/
theorem tile_lhs_row (i : S2000x64.Idx) (κ : dot_S2000x128_S128x64_S2000x64_1_0_0_1_n_n.contr.Idx) :
    (dot_S2000x128_S128x64_S2000x64_1_0_0_1_n_n.lhsIdx i κ 0).val = (i 0).val := by
  unfold DotDims.lhsIdx
  rw [dif_neg (show ¬(0 : Fin S2000x128.rank) ∈ dot_S2000x128_S128x64_S2000x64_1_0_0_1_n_n.lhsBatch by decide),
    dif_pos (show (0 : Fin S2000x128.rank) ∈ dot_S2000x128_S128x64_S2000x64_1_0_0_1_n_n.lhsNonContracting by decide)]
  rfl

/-- The tile product's right operand index keeps the output's column, whatever the contraction index. -/
theorem tile_rhs_col (i : S2000x64.Idx) (κ : dot_S2000x128_S128x64_S2000x64_1_0_0_1_n_n.contr.Idx) :
    (dot_S2000x128_S128x64_S2000x64_1_0_0_1_n_n.rhsIdx i κ 1).val = (i 1).val := by
  unfold DotDims.rhsIdx
  rw [dif_neg (show ¬(1 : Fin S128x64.rank) ∈ dot_S2000x128_S128x64_S2000x64_1_0_0_1_n_n.rhsBatch by decide),
    dif_pos (show (1 : Fin S128x64.rank) ∈ dot_S2000x128_S128x64_S2000x64_1_0_0_1_n_n.rhsNonContracting by decide)]
  rfl

/-- The tile product's left operand index at output `(r, q)`, contraction coordinate `k`: `(r, k)`. -/
theorem tile_lhs (r : Fin 2000) (q : Fin 64) (k : Fin 128) :
    dot_S2000x128_S128x64_S2000x64_1_0_0_1_n_n.lhsIdx (ix2 r q)
      ((contrEquiv1 dot_S2000x128_S128x64_S2000x64_1_0_0_1_n_n 128 rfl rfl).symm k) = ix2 r k :=
  funext fun a => Fin.ext (by
    have hk := contrEquiv1_symm_val dot_S2000x128_S128x64_S2000x64_1_0_0_1_n_n 128 rfl rfl k
    match a with
    | ⟨0, _⟩ => exact tile_lhs_row _ _
    | ⟨1, _⟩ => exact (dot_S2000x128_S128x64_S2000x64_1_0_0_1_n_n.lhsIdx_val_of_single rfl _ _).trans hk)

/-- The tile product's right operand index at output `(r, q)`, contraction coordinate `k`: `(k, q)`. -/
theorem tile_rhs (r : Fin 2000) (q : Fin 64) (k : Fin 128) :
    dot_S2000x128_S128x64_S2000x64_1_0_0_1_n_n.rhsIdx (ix2 r q)
      ((contrEquiv1 dot_S2000x128_S128x64_S2000x64_1_0_0_1_n_n 128 rfl rfl).symm k) = ix2 k q :=
  funext fun a => Fin.ext (by
    have hk := contrEquiv1_symm_val dot_S2000x128_S128x64_S2000x64_1_0_0_1_n_n 128 rfl rfl k
    match a with
    | ⟨0, _⟩ => exact (dot_S2000x128_S128x64_S2000x64_1_0_0_1_n_n.rhsIdx_val_of_single rfl _ _).trans hk
    | ⟨1, _⟩ => exact tile_rhs_col _ _)

/-- The tile product into the zero accumulator, at `(r, q)`: the sum over the 128 joined columns. -/
theorem tile_product {φ₁ φ₂ : FTy} (L : FVec Ideal S2000x128 φ₁) (Rt : FVec Ideal S128x64 φ₂) (r : Fin 2000) (q : Fin 64) :
    FloatOps.matmul dot_S2000x128_S128x64_S2000x64_1_0_0_1_n_n none L Rt (constant S2000x64 .f32 0x00000000#32) (ix2 r q)
      = ∑ k : Fin 128, L (ix2 r k) * Rt (ix2 k q) :=
  Cert.LibContractSum.matmul_zero_sum dot_S2000x128_S128x64_S2000x64_1_0_0_1_n_n none 128 rfl rfl L Rt (ix2 r q)
    (fun k => ix2 r k) (fun k => ix2 k q) (tile_lhs r q) (tile_rhs r q)

/-- The staged bias row broadcast over the tile's rows, at `(r, q)`: the row's entry `q`. -/
theorem bias_row (brow : FVec Ideal S1x64 .f32) (r : Fin 2000) (q : Fin 64) :
    broadcastTo S2000x64 brow broadcasts_S1x64_S2000x64 (ix2 r q) = brow (ix2 0 q) :=
  broadcastTo_apply brow broadcasts_S1x64_S2000x64 (ix2 r q) (ix2 0 q) (fun a => by
    match a with
    | ⟨0, _⟩ => show (0 : Nat) = if (1 : Nat) = 1 then 0 else _; rw [if_pos rfl]
    | ⟨1, _⟩ => show q.val = if (64 : Nat) = 1 then 0 else _; rw [if_neg (by decide)]; rfl)

/-- The common arithmetic of both bodies at `(r, q)`. -/
theorem core_at (x0 x1 : FVec Ideal S2000x64 .f32) (wt : FVec Ideal S128x64 .f32) (brow : FVec Ideal S1x64 .f32)
    (W : (⟨2, ![64, 128]⟩ : Shape).Idx → EReal) (b : (⟨1, ![64]⟩ : Shape).Idx → EReal)
    (hW : ∀ (k : Fin 128) (q : Fin 64), wt (ix2 k q) = W (ix2 q k)) (hb : ∀ q : Fin 64, brow (ix2 0 q) = b (ix1 q))
    (r : Fin 2000) (q : Fin 64) :
    max (FloatOps.matmul dot_S2000x128_S128x64_S2000x64_1_0_0_1_n_n none
          (concatenate S2000x128 1 [⟨S2000x64, x0⟩, ⟨S2000x64, x1⟩] concatenates_S2000x64_S2000x64_S2000x128_d1 : FVec Ideal S2000x128 .bf16)
          (wt : FVec Ideal S128x64 .bf16) (constant S2000x64 .f32 0x00000000#32) (ix2 r q)
        + broadcastTo S2000x64 brow broadcasts_S1x64_S2000x64 (ix2 r q)) (Ideal.ofBits .f32 0x00000000#32)
      = denseAt (R := 2000) x0 x1 W b r q := by
  unfold denseAt
  refine congrArg₂ max (congrArg₂ (· + ·) ?_ ((bias_row brow r q).trans (hb q))) Ideal.ofBits_zero_f32
  refine (tile_product _ _ r q).trans (Finset.sum_congr rfl fun k _ => ?_)
  exact congrArg₂ (· * ·) (Cert.JoinedColumns.concat_joined (R := 2000) x0 x1 concatenates_S2000x64_S2000x64_S2000x128_d1 r k) (hW k q)

/-- The first layer's body: its stored value at `(r, q)`. -/
theorem pay0_at (x0 x1 : Vec Ideal S2000x64 .f32) (wt : Vec Ideal S128x64 .f32) (brow : Vec Ideal S1x64 .f32)
    (W : (⟨2, ![64, 128]⟩ : Shape).Idx → EReal) (b : (⟨1, ![64]⟩ : Shape).Idx → EReal)
    (hW : ∀ (k : Fin 128) (q : Fin 64), wt (ix2 k q) = W (ix2 q k)) (hb : ∀ q : Fin 64, brow (ix2 0 q) = b (ix1 q))
    (r : Fin 2000) (q : Fin 64) :
    k0_pay1 (F := Ideal) x0 x1 wt brow (ix2 r q) = denseAt (R := 2000) x0 x1 W b r q := by
  have e1 : shapeCast S2000x64 x1 shapeCasts_S2000x64_S2000x64 = x1 := shapeCast_self _ _
  have e2 : shapeCast S128x64 wt shapeCasts_S128x64_S128x64 = wt := shapeCast_self _ _
  have e3 : shapeCast S1x64 brow shapeCasts_S1x64_S1x64 = brow := shapeCast_self _ _
  refine Eq.trans ?_ (core_at x0 x1 wt brow W b hW hb r q)
  unfold k0_pay1
  show max (FloatOps.matmul dot_S2000x128_S128x64_S2000x64_1_0_0_1_n_n none
        (concatenate S2000x128 1 [⟨S2000x64, x0⟩, ⟨S2000x64, shapeCast S2000x64 x1 shapeCasts_S2000x64_S2000x64⟩] concatenates_S2000x64_S2000x64_S2000x128_d1 : FVec Ideal S2000x128 .bf16)
        (shapeCast S128x64 wt shapeCasts_S128x64_S128x64 : FVec Ideal S128x64 .bf16) (constant S2000x64 .f32 0x00000000#32) (ix2 r q)
      + broadcastTo S2000x64 (shapeCast S1x64 brow shapeCasts_S1x64_S1x64) broadcasts_S1x64_S2000x64 (ix2 r q)) (Ideal.ofBits .f32 0x00000000#32) = _
  rw [e1, e2, e3]
  rfl

/-- The second layer's body: its stored value at `(r, q)`. -/
theorem pay1_at (x0 x1 : Vec Ideal S2000x64 .f32) (wt : Vec Ideal S128x64 .f32) (brow : Vec Ideal S1x64 .f32)
    (W : (⟨2, ![64, 128]⟩ : Shape).Idx → EReal) (b : (⟨1, ![64]⟩ : Shape).Idx → EReal)
    (hW : ∀ (k : Fin 128) (q : Fin 64), wt (ix2 k q) = W (ix2 q k)) (hb : ∀ q : Fin 64, brow (ix2 0 q) = b (ix1 q))
    (r : Fin 2000) (q : Fin 64) :
    k1_pay1 (F := Ideal) x0 x1 wt brow (ix2 r q) = denseAt (R := 2000) x0 x1 W b r q := by
  have e0 : shapeCast S2000x64 x0 shapeCasts_S2000x64_S2000x64 = x0 := shapeCast_self _ _
  have e1 : shapeCast S2000x64 x1 shapeCasts_S2000x64_S2000x64 = x1 := shapeCast_self _ _
  have e2 : shapeCast S128x64 wt shapeCasts_S128x64_S128x64 = wt := shapeCast_self _ _
  have e3 : shapeCast S1x64 brow shapeCasts_S1x64_S1x64 = brow := shapeCast_self _ _
  refine Eq.trans ?_ (core_at x0 x1 wt brow W b hW hb r q)
  unfold k1_pay1
  show max (FloatOps.matmul dot_S2000x128_S128x64_S2000x64_1_0_0_1_n_n none
        (concatenate S2000x128 1 [⟨S2000x64, shapeCast S2000x64 x0 shapeCasts_S2000x64_S2000x64⟩, ⟨S2000x64, shapeCast S2000x64 x1 shapeCasts_S2000x64_S2000x64⟩] concatenates_S2000x64_S2000x64_S2000x128_d1 : FVec Ideal S2000x128 .bf16)
        (shapeCast S128x64 wt shapeCasts_S128x64_S128x64 : FVec Ideal S128x64 .bf16) (constant S2000x64 .f32 0x00000000#32) (ix2 r q)
      + broadcastTo S2000x64 (shapeCast S1x64 brow shapeCasts_S1x64_S1x64) broadcasts_S1x64_S2000x64 (ix2 r q)) (Ideal.ofBits .f32 0x00000000#32) = _
  rw [e0, e1, e2, e3]
  rfl

end Cert.TilePayload

end
-- ==== Proof.TileCover.lean ====
/-
  From tiles to the whole array, for each of the two dense kernels.

  A region runs its body at 25 grid points; point `t` reads rows 2000·t … 2000·t+1999 of the node features and of the
  aggregated features, the whole staged weight and bias row, and writes rows 2000·t … 2000·t+1999 of the output. The
  body's stored entry is the specification's `denseAt` of the tile (TilePayload), and `denseAt` of a tile of rows is
  `denseAt` of the whole arrays at the tile's rows (DenseSpec), so what point `t` writes back is block `t` of ONE
  whole-array function; the 25 row tiles cover the 50000 rows, so the output array ends holding that function.
-/
import proofs.«120752_j51384988729581_1_alg».proof.Proof.Gen.KernelIdeal.Frame
import proofs.«120752_j51384988729581_1_alg».proof.Proof.TilePayload
import Idealize.ShloMosaic.Lib.Pipeline.Value

set_option maxRecDepth 16384

noncomputable section

namespace Cert.KernelIdeal.TileCover

open Cert.KernelIdeal Cert.KernelIdeal.Gen Idealize.ShloMosaic Idealize.ShloMosaic.TcCoe Idealize.ShloMosaic.ValueIdx
open Idealize.SL.Sem Cert.DenseSpec
open Idealize.ShloMosaic.Pipeline (Dat Cfg Window)

theorem hz : (![0, 0] : Fin 2 → Nat) = fun _ => 0 := funext fun a => by fin_cases a <;> rfl

/-! ## Layer 1's kernel (region 0) -/

section Region0

variable (V : (c : Dev nD) → (b : Ref sig .tc) → Buf (Elt Ideal) ((c : Thread nD τ).loc b))

/-- The printed block index maps over the 25 grid points: the two row-tiled inputs and the output sit at row tile `t`,
    column tile 0; the weight and the bias row are one whole block. -/
theorem tiles0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- WHAT GRID POINT `t` WRITES BACK is block `t` of `dense` of the region's arrays as it finds them, when the staged
    weight is `W` transposed and the staged row is `b`. -/
theorem written0 (c : Dev nD) (W : (⟨2, ![64, 128]⟩ : Shape).Idx → EReal) (b : (⟨1, ![64]⟩ : Shape).Idx → EReal)
    (hW : ∀ (k : Fin 128) (q : Fin 64), V c main_v28 (ix2 k q) = W (ix2 q k))
    (hb : ∀ q : Fin 64, V c main_v29 (ix2 0 q) = b (ix1 q)) (t : Fin cfg0.N) :
    (dat0 (F := Ideal) V c).flushed 4 t
      = ((cfg0.win 4).blk t).view.read (Elt Ideal) (dense (R := 50000) (V c main_arg0) (V c main_v27) W b) := by
  show (cfg0.win 4).cut (grid0.coords t) ((dat0 (F := Ideal) V c).after 4 t) = _
  rw [after0_4]
  unfold out0_4
  rw [View.canon_unit_zero hz]
  simp only [View.ld_unit_zero (S := S2000x64) hz, View.ld_unit_zero (S := S128x64) hz, View.ld_unit_zero (S := S1x64) hz]
  obtain ⟨e00, e01, e10, e11, e20, e21, e30, e31, e40, e41⟩ := tiles0 t
  have ht : t.val < 25 := lt_of_lt_of_eq t.isLt N_0
  funext j
  obtain ⟨r, q, rfl⟩ : ∃ (r : Fin 2000) (q : Fin 64), j = ix2 r q := ⟨j 0, j 1, eq_ix2 j⟩
  have hr : r.val < 2000 := r.isLt
  have hq : q.val < 64 := q.isLt
  refine (Cert.TilePayload.pay0_at (iblk0 V c 0 t) (iblk0 V c 1 t) (iblk0 V c 2 t) (iblk0 V c 3 t) W b
    (fun k q' => ?_) (fun q' => ?_) r q).trans ?_
  · -- the staged weight block is the whole transposed weight
    refine Eq.trans ?_ (hW k q')
    show V c main_v28 (((cfg0.win 2).blk t).view.emb (ix2 k q')) = V c main_v28 (ix2 k q')
    refine congrArg _ (funext fun a => Fin.ext ?_)
    match a with
    | ⟨0, _⟩ => show win0_2.index t (0 : Fin 2) * 128 + 1 * k.val = k.val; omega
    | ⟨1, _⟩ => show win0_2.index t (1 : Fin 2) * 64 + 1 * q'.val = q'.val; omega
  · -- the staged bias block is the whole row
    refine Eq.trans ?_ (hb q')
    show V c main_v29 (((cfg0.win 3).blk t).view.emb (ix2 0 q')) = V c main_v29 (ix2 0 q')
    refine congrArg _ (funext fun a => Fin.ext ?_)
    match a with
    | ⟨0, _⟩ => show win0_3.index t (0 : Fin 2) * 1 + 1 * 0 = 0; omega
    | ⟨1, _⟩ => show win0_3.index t (1 : Fin 2) * 64 + 1 * q'.val = q'.val; omega
  · -- row r of tile t is row 2000 t + r of the whole arrays
    have hemb : ((cfg0.win 4).blk t).view.emb (ix2 r q) = ix2 (⟨t.val * 2000 + r.val, by omega⟩ : Fin 50000) q :=
      funext fun a => Fin.ext (by
        match a with
        | ⟨0, _⟩ => show win0_4.index t (0 : Fin 2) * 2000 + 1 * r.val = t.val * 2000 + r.val; omega
        | ⟨1, _⟩ => show win0_4.index t (1 : Fin 2) * 64 + 1 * q.val = q.val; omega)
    show _ = dense (R := 50000) (V c main_arg0) (V c main_v27) W b (((cfg0.win 4).blk t).view.emb (ix2 r q))
    rw [hemb, dense_ix2]
    refine denseAt_tile (V c main_arg0) (V c main_v27) (iblk0 V c 0 t) (iblk0 V c 1 t) W b r _ (fun l => ?_) (fun l => ?_) q
    · show V c main_arg0 (((cfg0.win 0).blk t).view.emb (ix2 r l)) = V c main_arg0 (ix2 _ l)
      refine congrArg _ (funext fun a => Fin.ext ?_)
      match a with
      | ⟨0, _⟩ => show win0_0.index t (0 : Fin 2) * 2000 + 1 * r.val = t.val * 2000 + r.val; omega
      | ⟨1, _⟩ => show win0_0.index t (1 : Fin 2) * 64 + 1 * l.val = l.val; omega
    · show V c main_v27 (((cfg0.win 1).blk t).view.emb (ix2 r l)) = V c main_v27 (ix2 _ l)
      refine congrArg _ (funext fun a => Fin.ext ?_)
      match a with
      | ⟨0, _⟩ => show win0_1.index t (0 : Fin 2) * 2000 + 1 * r.val = t.val * 2000 + r.val; omega
      | ⟨1, _⟩ => show win0_1.index t (1 : Fin 2) * 64 + 1 * l.val = l.val; omega

/-- An index of the output array is in point `t`'s block iff each coordinate is in the block's range on its axis. -/
theorem mem_tile0 (t : Fin cfg0.N) (i : S50000x64.Idx) :
    i ∈ ((cfg0.win 4).blk t).view.set ↔ ∀ a : Fin 2, win0_4.index t a * S2000x64.size a ≤ (i a).val ∧ (i a).val < win0_4.index t a * S2000x64.size a + S2000x64.size a := by
  show i ∈ ((View.whole main_v30).slice (win0_4.rect t)).set ↔ _
  rw [View.set_slice_whole, Rect.mem_set_unit]
  exact Iff.rfl

/-- Every row of the output lies in the tile of its row index divided by 2000. -/
theorem tiles_cover0 (i : S50000x64.Idx) :
    ∃ t : Fin cfg0.N, (cfg0.win 4).flush t = true ∧ i ∈ ((cfg0.win 4).blk t).view.set := by
  have hi0 : (i 0).val < 50000 := (i 0).isLt
  have hi1 : (i 1).val < 64 := (i 1).isLt
  have hN : cfg0.N = 25 := N_0
  let t : Fin cfg0.N := ⟨(i 0).val / 2000, by rw [hN]; omega⟩
  obtain ⟨-, -, -, -, -, -, -, -, e40, e41⟩ := tiles0 t
  have e40' : win0_4.index t (0 : Fin 2) = (i 0).val / 2000 := e40
  refine ⟨t, flush0_4 t, ?_⟩
  rw [mem_tile0]
  intro a
  match a with
  | ⟨0, _⟩ => show win0_4.index t (0 : Fin 2) * 2000 ≤ (i 0).val ∧ (i 0).val < win0_4.index t (0 : Fin 2) * 2000 + 2000; omega
  | ⟨1, _⟩ => show win0_4.index t (1 : Fin 2) * 64 ≤ (i 1).val ∧ (i 1).val < win0_4.index t (1 : Fin 2) * 64 + 64; omega

/-- THE OUTPUT ARRAY after the region: `dense` of the region's arrays as it found them. -/
theorem result0 (c : Dev nD) (W : (⟨2, ![64, 128]⟩ : Shape).Idx → EReal) (b : (⟨1, ![64]⟩ : Shape).Idx → EReal)
    (hW : ∀ (k : Fin 128) (q : Fin 64), V c main_v28 (ix2 k q) = W (ix2 q k))
    (hb : ∀ q : Fin 64, V c main_v29 (ix2 0 q) = b (ix1 q)) :
    (dat0 (F := Ideal) V c).arrAt 4 cfg0.N = dense (R := 50000) (V c main_arg0) (V c main_v27) W b :=
  (dat0 (F := Ideal) V c).arrAt_eq_of_cover 4 _ (fun t _ => written0 V c W b hW hb t) (tiles_cover0)

end Region0

/-! ## Layer 2's kernel (region 1) -/

section Region1

variable (V : (c : Dev nD) → (b : Ref sig .tc) → Buf (Elt Ideal) ((c : Thread nD τ).loc b))

/-- The printed block index maps over the 25 grid points: the two row-tiled inputs and the output sit at row tile `t`,
    column tile 0; the weight and the bias row are one whole block. -/
theorem tiles1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- WHAT GRID POINT `t` WRITES BACK is block `t` of `dense` of the region's arrays as it finds them, when the staged
    weight is `W` transposed and the staged row is `b`. -/
theorem written1 (c : Dev nD) (W : (⟨2, ![64, 128]⟩ : Shape).Idx → EReal) (b : (⟨1, ![64]⟩ : Shape).Idx → EReal)
    (hW : ∀ (k : Fin 128) (q : Fin 64), V c main_v47 (ix2 k q) = W (ix2 q k))
    (hb : ∀ q : Fin 64, V c main_v48 (ix2 0 q) = b (ix1 q)) (t : Fin cfg1.N) :
    (dat1 (F := Ideal) V c).flushed 4 t
      = ((cfg1.win 4).blk t).view.read (Elt Ideal) (dense (R := 50000) (V c main_v30) (V c main_v46) W b) := by
  show (cfg1.win 4).cut (grid1.coords t) ((dat1 (F := Ideal) V c).after 4 t) = _
  rw [after1_4]
  unfold out1_4
  rw [View.canon_unit_zero hz]
  simp only [View.ld_unit_zero (S := S2000x64) hz, View.ld_unit_zero (S := S128x64) hz, View.ld_unit_zero (S := S1x64) hz]
  obtain ⟨e00, e01, e10, e11, e20, e21, e30, e31, e40, e41⟩ := tiles1 t
  have ht : t.val < 25 := lt_of_lt_of_eq t.isLt N_1
  funext j
  obtain ⟨r, q, rfl⟩ : ∃ (r : Fin 2000) (q : Fin 64), j = ix2 r q := ⟨j 0, j 1, eq_ix2 j⟩
  have hr : r.val < 2000 := r.isLt
  have hq : q.val < 64 := q.isLt
  refine (Cert.TilePayload.pay1_at (iblk1 V c 0 t) (iblk1 V c 1 t) (iblk1 V c 2 t) (iblk1 V c 3 t) W b
    (fun k q' => ?_) (fun q' => ?_) r q).trans ?_
  · -- the staged weight block is the whole transposed weight
    refine Eq.trans ?_ (hW k q')
    show V c main_v47 (((cfg1.win 2).blk t).view.emb (ix2 k q')) = V c main_v47 (ix2 k q')
    refine congrArg _ (funext fun a => Fin.ext ?_)
    match a with
    | ⟨0, _⟩ => show win1_2.index t (0 : Fin 2) * 128 + 1 * k.val = k.val; omega
    | ⟨1, _⟩ => show win1_2.index t (1 : Fin 2) * 64 + 1 * q'.val = q'.val; omega
  · -- the staged bias block is the whole row
    refine Eq.trans ?_ (hb q')
    show V c main_v48 (((cfg1.win 3).blk t).view.emb (ix2 0 q')) = V c main_v48 (ix2 0 q')
    refine congrArg _ (funext fun a => Fin.ext ?_)
    match a with
    | ⟨0, _⟩ => show win1_3.index t (0 : Fin 2) * 1 + 1 * 0 = 0; omega
    | ⟨1, _⟩ => show win1_3.index t (1 : Fin 2) * 64 + 1 * q'.val = q'.val; omega
  · -- row r of tile t is row 2000 t + r of the whole arrays
    have hemb : ((cfg1.win 4).blk t).view.emb (ix2 r q) = ix2 (⟨t.val * 2000 + r.val, by omega⟩ : Fin 50000) q :=
      funext fun a => Fin.ext (by
        match a with
        | ⟨0, _⟩ => show win1_4.index t (0 : Fin 2) * 2000 + 1 * r.val = t.val * 2000 + r.val; omega
        | ⟨1, _⟩ => show win1_4.index t (1 : Fin 2) * 64 + 1 * q.val = q.val; omega)
    show _ = dense (R := 50000) (V c main_v30) (V c main_v46) W b (((cfg1.win 4).blk t).view.emb (ix2 r q))
    rw [hemb, dense_ix2]
    refine denseAt_tile (V c main_v30) (V c main_v46) (iblk1 V c 0 t) (iblk1 V c 1 t) W b r _ (fun l => ?_) (fun l => ?_) q
    · show V c main_v30 (((cfg1.win 0).blk t).view.emb (ix2 r l)) = V c main_v30 (ix2 _ l)
      refine congrArg _ (funext fun a => Fin.ext ?_)
      match a with
      | ⟨0, _⟩ => show win1_0.index t (0 : Fin 2) * 2000 + 1 * r.val = t.val * 2000 + r.val; omega
      | ⟨1, _⟩ => show win1_0.index t (1 : Fin 2) * 64 + 1 * l.val = l.val; omega
    · show V c main_v46 (((cfg1.win 1).blk t).view.emb (ix2 r l)) = V c main_v46 (ix2 _ l)
      refine congrArg _ (funext fun a => Fin.ext ?_)
      match a with
      | ⟨0, _⟩ => show win1_1.index t (0 : Fin 2) * 2000 + 1 * r.val = t.val * 2000 + r.val; omega
      | ⟨1, _⟩ => show win1_1.index t (1 : Fin 2) * 64 + 1 * l.val = l.val; omega

/-- An index of the output array is in point `t`'s block iff each coordinate is in the block's range on its axis. -/
theorem mem_tile1 (t : Fin cfg1.N) (i : S50000x64.Idx) :
    i ∈ ((cfg1.win 4).blk t).view.set ↔ ∀ a : Fin 2, win1_4.index t a * S2000x64.size a ≤ (i a).val ∧ (i a).val < win1_4.index t a * S2000x64.size a + S2000x64.size a := by
  show i ∈ ((View.whole main_v49).slice (win1_4.rect t)).set ↔ _
  rw [View.set_slice_whole, Rect.mem_set_unit]
  exact Iff.rfl

/-- Every row of the output lies in the tile of its row index divided by 2000. -/
theorem tiles_cover1 (i : S50000x64.Idx) :
    ∃ t : Fin cfg1.N, (cfg1.win 4).flush t = true ∧ i ∈ ((cfg1.win 4).blk t).view.set := by
  have hi0 : (i 0).val < 50000 := (i 0).isLt
  have hi1 : (i 1).val < 64 := (i 1).isLt
  have hN : cfg1.N = 25 := N_1
  let t : Fin cfg1.N := ⟨(i 0).val / 2000, by rw [hN]; omega⟩
  obtain ⟨-, -, -, -, -, -, -, -, e40, e41⟩ := tiles1 t
  have e40' : win1_4.index t (0 : Fin 2) = (i 0).val / 2000 := e40
  refine ⟨t, flush1_4 t, ?_⟩
  rw [mem_tile1]
  intro a
  match a with
  | ⟨0, _⟩ => show win1_4.index t (0 : Fin 2) * 2000 ≤ (i 0).val ∧ (i 0).val < win1_4.index t (0 : Fin 2) * 2000 + 2000; omega
  | ⟨1, _⟩ => show win1_4.index t (1 : Fin 2) * 64 ≤ (i 1).val ∧ (i 1).val < win1_4.index t (1 : Fin 2) * 64 + 64; omega

/-- THE OUTPUT ARRAY after the region: `dense` of the region's arrays as it found them. -/
theorem result1 (c : Dev nD) (W : (⟨2, ![64, 128]⟩ : Shape).Idx → EReal) (b : (⟨1, ![64]⟩ : Shape).Idx → EReal)
    (hW : ∀ (k : Fin 128) (q : Fin 64), V c main_v47 (ix2 k q) = W (ix2 q k))
    (hb : ∀ q : Fin 64, V c main_v48 (ix2 0 q) = b (ix1 q)) :
    (dat1 (F := Ideal) V c).arrAt 4 cfg1.N = dense (R := 50000) (V c main_v30) (V c main_v46) W b :=
  (dat1 (F := Ideal) V c).arrAt_eq_of_cover 4 _ (fun t _ => written1 V c W b hW hb t) (tiles_cover1)

end Region1

end Cert.KernelIdeal.TileCover

end
-- ==== Proof.RefDense.lean ====
/-
  The reference's two layers, each as the specification's `dense` of its inputs.

  Layer 1 ends at relu([x | agg₁] · W₁ᵀ + b₁) and layer 2 at relu([h | agg₂] · W₂ᵀ + b₂), where `agg` is that layer's
  normalised neighbour sum (left as the reference's own stage: nothing here looks inside it) and `h` is layer 1's result.
  Read index by index: the host product's entry is a sum over the 128 joined columns; the transposed weight at `(k, q)` is
  `W (q, k)`; the bias row broadcast over the nodes is `b q`; relu's floor is the zero word.
-/
import proofs.«120752_j51384988729581_1_alg».proof.Proof.Gen.ReferenceIdeal.Read
import proofs.«120752_j51384988729581_1_alg».proof.Proof.JoinedColumns

noncomputable section

namespace Cert.RefDense

open Cert.ReferenceIdeal Cert.ReferenceIdeal.Gen Cert.ReferenceIdeal.Read Idealize.ShloMosaic Idealize.ShloMosaic.ValueIdx Cert.DenseSpec

/-- The host product's left operand index at output `(p, q)` and contraction coordinate `k` is `(p, k)`. -/
theorem lidx1 (p : Fin 50000) (q : Fin 64) (k : Fin 128) : lidx_main_v28 (ix2 p q) k = ix2 p k :=
  funext fun a => Fin.ext (by match a with | ⟨0, _⟩ => rfl | ⟨1, _⟩ => rfl)
theorem lidx2 (p : Fin 50000) (q : Fin 64) (k : Fin 128) : lidx_main_v57 (ix2 p q) k = ix2 p k :=
  funext fun a => Fin.ext (by match a with | ⟨0, _⟩ => rfl | ⟨1, _⟩ => rfl)
/-- The transposed weight read at the product's right operand index is the weight at `(q, k)`. -/
theorem widx1 (p : Fin 50000) (q : Fin 64) (k : Fin 128) : idx_main_v27 (ridx_main_v28 (ix2 p q) k) = ix2 q k :=
  funext fun a => Fin.ext (by match a with | ⟨0, _⟩ => rfl | ⟨1, _⟩ => rfl)
theorem widx2 (p : Fin 50000) (q : Fin 64) (k : Fin 128) : idx_main_v56 (ridx_main_v57 (ix2 p q) k) = ix2 q k :=
  funext fun a => Fin.ext (by match a with | ⟨0, _⟩ => rfl | ⟨1, _⟩ => rfl)
/-- The bias, laid out as a row and broadcast over the nodes, read at `(p, q)` is `b q`. -/
theorem bidx1 (p : Fin 50000) (q : Fin 64) : idx_main_v29 (idx_main_v30 (ix2 p q)) = ix1 q :=
  funext fun a => Fin.ext (by match a with | ⟨0, _⟩ => rfl)
theorem bidx2 (p : Fin 50000) (q : Fin 64) : idx_main_v58 (idx_main_v59 (ix2 p q)) = ix1 q :=
  funext fun a => Fin.ext (by match a with | ⟨0, _⟩ => rfl)

/-- Layer 1 of the reference is `dense` of the node features and the layer's normalised neighbour sum. -/
theorem layer1 (x0 : FVec Ideal S50000x64 .f32) (x1 : (⟨S2x1600000, .i32⟩ : BufTy).Contents (Elt Ideal)) (x2 : FVec Ideal S1600000 .f32)
    (x3 : FVec Ideal S64x128 .f32) (x4 : FVec Ideal S64 .f32) :
    val_main_v32 (F := Ideal) x0 x1 x2 x3 x4 = dense (R := 50000) x0 (val_main_v25 (F := Ideal) x0 x1 x2) x3 x4 := by
  funext i
  obtain ⟨p, q, rfl⟩ : ∃ (p : Fin 50000) (q : Fin 64), i = ix2 p q := ⟨i 0, i 1, eq_ix2 i⟩
  rw [dense_ix2, val_main_v32_apply, val_main_v31_apply, val_main_v28_apply, val_main_v30_apply, val_main_v29_apply,
    val_main_call0_v0_apply, val_main_call0_cst_apply, bidx1]
  unfold denseAt
  refine congrArg₂ max (congrArg₂ (· + ·) (Finset.sum_congr rfl fun k _ => congrArg₂ (· * ·) ?_ ?_) rfl) Ideal.ofBits_zero_f32
  · rw [lidx1]
    unfold val_main_v26
    generalize val_main_v25 (F := Ideal) x0 x1 x2 = a
    exact Cert.JoinedColumns.concat_joined (R := 50000) x0 a concatenates_S50000x64_S50000x64_S50000x128_d1 p k
  · rw [val_main_v27_apply, widx1]

/-- Layer 2 of the reference is `dense` of layer 1's result and the second normalised neighbour sum. -/
theorem layer2 (x0 : FVec Ideal S50000x64 .f32) (x1 : (⟨S2x1600000, .i32⟩ : BufTy).Contents (Elt Ideal)) (x2 : FVec Ideal S1600000 .f32)
    (x3 : FVec Ideal S64x128 .f32) (x4 : FVec Ideal S64 .f32) (x5 : FVec Ideal S64x128 .f32) (x6 : FVec Ideal S64 .f32) :
    val_main_v61 (F := Ideal) x0 x1 x2 x3 x4 x5 x6
      = dense (R := 50000) (val_main_v32 (F := Ideal) x0 x1 x2 x3 x4) (val_main_v54 (F := Ideal) x0 x1 x2 x3 x4) x5 x6 := by
  funext i
  obtain ⟨p, q, rfl⟩ : ∃ (p : Fin 50000) (q : Fin 64), i = ix2 p q := ⟨i 0, i 1, eq_ix2 i⟩
  rw [dense_ix2, val_main_v61_apply, val_main_v60_apply, val_main_v57_apply, val_main_v59_apply, val_main_v58_apply,
    val_main_call1_v0_apply, val_main_call1_cst_apply, bidx2]
  unfold denseAt
  refine congrArg₂ max (congrArg₂ (· + ·) (Finset.sum_congr rfl fun k _ => congrArg₂ (· * ·) ?_ ?_) rfl) Ideal.ofBits_zero_f32
  · rw [lidx2]
    unfold val_main_v55
    generalize val_main_v32 (F := Ideal) x0 x1 x2 x3 x4 = h
    generalize val_main_v54 (F := Ideal) x0 x1 x2 x3 x4 = a
    exact Cert.JoinedColumns.concat_joined (R := 50000) h a concatenates_S50000x64_S50000x64_S50000x128_d1 p k
  · rw [val_main_v56_apply, widx2]

end Cert.RefDense

end
-- ==== Proof.KernelStages.lean ====
/-
  The idealized kernel program's result array is the reference's final stage of the same arguments.

  The first host stretch prepares, from the arguments, exactly what the reference's layer 1 feeds its product: the
  edge sources and destinations, the floored edge counts, the per-node weighted neighbour sums — the same gather,
  multiply and scatter-add, never opened here — and then scales the sums by the reciprocal counts where the reference
  divides by the counts (AggScale: one function). It also transposes `W₁` and lays `b₁` out as a row. The first kernel
  region therefore leaves the reference's layer-1 result (TileCover, RefDense). The second stretch repeats the
  aggregation on that result with the same sources, destinations and reciprocal counts, the second region the dense
  step with `W₂`, `b₂`: the reference's layer 2.
-/
import proofs.«120752_j51384988729581_1_alg».proof.Proof.Gen.KernelIdeal.Frame
import proofs.«120752_j51384988729581_1_alg».proof.Proof.Gen.ReferenceIdeal.Read
import proofs.«120752_j51384988729581_1_alg».proof.Proof.AggScale
import proofs.«120752_j51384988729581_1_alg».proof.Proof.TileCover
import proofs.«120752_j51384988729581_1_alg».proof.Proof.RefDense

set_option maxRecDepth 16384

noncomputable section

namespace Cert.KernelIdeal.Stages

open Cert.KernelIdeal Cert.KernelIdeal.Gen Cert.ReferenceIdeal.Read
open Idealize.ShloMosaic Idealize.ShloMosaic.TcCoe Idealize.ShloMosaic.ValueIdx Idealize.SL.Sem Idealize.ShloMosaic.StableHlo
open Cert.DenseSpec Cert.AggScale

variable (m : (ℓ : Loc nD τ sig) → Buf (Elt Ideal) ℓ) (ρ : Dev nD → PrngReg) (c : Dev nD)

/-! ## The first host stretch, from the launch memory -/

theorem first_src : W1 m ρ c (Proc.devRef .tc main_v1) = val_main_v1 (F := Ideal) (m ((c : Thread nD τ).loc main_arg1)) := by
  show StableHlo.after hostOps0 (W0 m ρ c) (Proc.devRef .tc main_v1) = _
  after_results_simp <;> rfl

theorem first_dst : W1 m ρ c (Proc.devRef .tc main_v3) = val_main_v3 (F := Ideal) (m ((c : Thread nD τ).loc main_arg1)) := by
  show StableHlo.after hostOps0 (W0 m ρ c) (Proc.devRef .tc main_v3) = _
  after_results_simp <;> rfl

theorem first_recip : W1 m ρ c (Proc.devRef .tc main_v11) = recip (val_main_v20 (F := Ideal) (m ((c : Thread nD τ).loc main_arg1))) := by
  show StableHlo.after hostOps0 (W0 m ρ c) (Proc.devRef .tc main_v11) = _
  after_results_simp <;> rfl

theorem first_weights : W1 m ρ c (Proc.devRef .tc main_arg2) = m ((c : Thread nD τ).loc main_arg2) := by
  show StableHlo.after hostOps0 (W0 m ρ c) (Proc.devRef .tc main_arg2) = _
  after_results_simp <;> rfl

theorem first_feat : W1 m ρ c (Proc.devRef .tc main_arg0) = m ((c : Thread nD τ).loc main_arg0) := by
  show StableHlo.after hostOps0 (W0 m ρ c) (Proc.devRef .tc main_arg0) = _
  after_results_simp <;> rfl

theorem first_w2 : W1 m ρ c (Proc.devRef .tc main_arg5) = m ((c : Thread nD τ).loc main_arg5) := by
  show StableHlo.after hostOps0 (W0 m ρ c) (Proc.devRef .tc main_arg5) = _
  after_results_simp <;> rfl

theorem first_b2 : W1 m ρ c (Proc.devRef .tc main_arg6) = m ((c : Thread nD τ).loc main_arg6) := by
  show StableHlo.after hostOps0 (W0 m ρ c) (Proc.devRef .tc main_arg6) = _
  after_results_simp <;> rfl

/-- The scaled neighbour sums the first region reads: the reference's sums times the broadcast reciprocal counts. -/
theorem first_agg : W1 m ρ c (Proc.devRef .tc main_v27)
    = mulf (val_main_v16 (F := Ideal) (m ((c : Thread nD τ).loc main_arg0)) (m ((c : Thread nD τ).loc main_arg1)) (m ((c : Thread nD τ).loc main_arg2)))
        (spread (recip (val_main_v20 (F := Ideal) (m ((c : Thread nD τ).loc main_arg1))))) := by
  show StableHlo.after hostOps0 (W0 m ρ c) (Proc.devRef .tc main_v27) = _
  after_results_simp <;> rfl

theorem first_wt : W1 m ρ c (Proc.devRef .tc main_v28) = val_main_v27 (F := Ideal) (m ((c : Thread nD τ).loc main_arg3)) := by
  show StableHlo.after hostOps0 (W0 m ρ c) (Proc.devRef .tc main_v28) = _
  after_results_simp <;> rfl

theorem first_brow : W1 m ρ c (Proc.devRef .tc main_v29) = shapeCast S1x64 (m ((c : Thread nD τ).loc main_arg4)) shapeCasts_S64_S1x64 := by
  show StableHlo.after hostOps0 (W0 m ρ c) (Proc.devRef .tc main_v29) = _
  after_results_simp <;> rfl

/-! ## Layout facts shared by both layers -/

/-- A transposed weight at `(k, q)` is the weight at `(q, k)`. -/
theorem transposed_at (W : FVec Ideal Cert.ReferenceIdeal.S64x128 .f32) (k : Fin 128) (q : Fin 64) :
    val_main_v27 (F := Ideal) W (ix2 k q) = W (ix2 q k) := by
  rw [val_main_v27_apply]
  exact congrArg W (funext fun a => Fin.ext (by match a with | ⟨0, _⟩ => rfl | ⟨1, _⟩ => rfl))

/-- A bias laid out as a one-row matrix, at `(0, q)`, is its entry `q`. -/
theorem row_at (b : FVec Ideal S64 .f32) (q : Fin 64) : shapeCast S1x64 b shapeCasts_S64_S1x64 (ix2 0 q) = b (ix1 q) :=
  shapeCast_apply b shapeCasts_S64_S1x64 (ix2 0 q) (ix1 q) (by
    rw [Shape.rowMajor_val_one, Shape.rowMajor_val_two]
    show q.val = 0 * 64 + q.val
    omega)

/-! ## Layer 1 -/

/-- After the first region its output array holds the reference's layer-1 result. -/
theorem layer1 : W2 m ρ c (Proc.devRef .tc main_v30)
    = val_main_v32 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) := by
  refine (W2_arr m ρ c 4).trans ?_
  refine (Cert.KernelIdeal.TileCover.result0 (V1 m ρ) c (m ((c : Thread nD τ).loc main_arg3)) (m ((c : Thread nD τ).loc main_arg4))
    (fun k q => ?_) (fun q => ?_)).trans ?_
  · show W1 m ρ c (Proc.devRef .tc main_v28) (ix2 k q) = _
    rw [first_wt]; exact transposed_at _ k q
  · show W1 m ρ c (Proc.devRef .tc main_v29) (ix2 0 q) = _
    rw [first_brow]; exact row_at _ q
  · show dense (R := 50000) (W1 m ρ c (Proc.devRef .tc main_arg0)) (W1 m ρ c (Proc.devRef .tc main_v27)) _ _ = _
    rw [first_feat, first_agg, scale_eq_div, Cert.RefDense.layer1]
    rfl

/-! ## The second host stretch, from the first region's exit -/

theorem second_keep (b : Ref sig .tc) (hb : ∀ w, Pipeline.arrRef spec0 w ≠ b) :
    W2 m ρ c (Proc.devRef .tc b) = W1 m ρ c (Proc.devRef .tc b) := W2_of_ne m ρ c b hb

/-- The scaled neighbour sums the second region reads: the same aggregation of whatever the first region left. -/
theorem second_agg : W3 m ρ c (Proc.devRef .tc main_v46)
    = mulf (val_main_v16 (F := Ideal) (W2 m ρ c (Proc.devRef .tc main_v30)) (m ((c : Thread nD τ).loc main_arg1)) (m ((c : Thread nD τ).loc main_arg2)))
        (spread (recip (val_main_v20 (F := Ideal) (m ((c : Thread nD τ).loc main_arg1))))) := by
  show StableHlo.after hostOps1 (W2 m ρ c) (Proc.devRef .tc main_v46) = _
  after_results_simp
  rw [second_keep m ρ c main_v1 (by decide), second_keep m ρ c main_v3 (by decide), second_keep m ρ c main_v11 (by decide),
    second_keep m ρ c main_arg2 (by decide), first_src, first_dst, first_recip, first_weights]
  rfl

theorem second_feat : W3 m ρ c (Proc.devRef .tc main_v30) = W2 m ρ c (Proc.devRef .tc main_v30) := by
  show StableHlo.after hostOps1 (W2 m ρ c) (Proc.devRef .tc main_v30) = _
  after_results_simp <;> rfl

theorem second_wt : W3 m ρ c (Proc.devRef .tc main_v47) = val_main_v27 (F := Ideal) (m ((c : Thread nD τ).loc main_arg5)) := by
  show StableHlo.after hostOps1 (W2 m ρ c) (Proc.devRef .tc main_v47) = _
  after_results_simp
  rw [second_keep m ρ c main_arg5 (by decide), first_w2]
  rfl

theorem second_brow : W3 m ρ c (Proc.devRef .tc main_v48) = shapeCast S1x64 (m ((c : Thread nD τ).loc main_arg6)) shapeCasts_S64_S1x64 := by
  show StableHlo.after hostOps1 (W2 m ρ c) (Proc.devRef .tc main_v48) = _
  after_results_simp
  rw [second_keep m ρ c main_arg6 (by decide), first_b2]
  rfl

/-! ## Layer 2: the result -/

/-- The result array at the last boundary is the reference's final stage of the launch arguments. -/
theorem result : W4 m ρ c (Proc.devRef .tc main_v49)
    = val_main_v61 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6)) := by
  refine (W4_arr m ρ c 4).trans ?_
  refine (Cert.KernelIdeal.TileCover.result1 (V3 m ρ) c (m ((c : Thread nD τ).loc main_arg5)) (m ((c : Thread nD τ).loc main_arg6))
    (fun k q => ?_) (fun q => ?_)).trans ?_
  · show W3 m ρ c (Proc.devRef .tc main_v47) (ix2 k q) = _
    rw [second_wt]; exact transposed_at _ k q
  · show W3 m ρ c (Proc.devRef .tc main_v48) (ix2 0 q) = _
    rw [second_brow]; exact row_at _ q
  · show dense (R := 50000) (W3 m ρ c (Proc.devRef .tc main_v30)) (W3 m ρ c (Proc.devRef .tc main_v46)) _ _ = _
    rw [second_feat, second_agg, layer1, scale_eq_div, Cert.RefDense.layer2]
    rfl

end Cert.KernelIdeal.Stages

end
-- ==== Proof.lean ====
/-
  Two layers of weighted mean aggregation over a graph, each followed by relu([x | agg] · Wᵀ + b): the tiled kernel
  program against the plain reference, equal as extended reals.

  Per layer both programs gather every edge's destination features, weight them, and scatter-add them to the edge's
  source node — the same host operations on the same inputs in both programs, carried here as one unopened function —
  and count each node's edges, floored at one. They differ in two ways only. The reference DIVIDES the sums by the
  floored counts, while the kernel's program multiplies them by the reciprocals `1 / max cnt 1` formed once: the same
  entry at every extended real, because the divisor is at least one, hence not zero (no finiteness of the inputs is
  needed, and the precondition is never opened). And the reference takes ONE product of the 50000 × 128 joined matrix
  with the transposed weight, while the kernel takes 25 products of 2000-row tiles on the matrix unit (its bf16 casts
  are the identity on the extended reals): each tile's rows are the whole product's rows, and the tiles cover the array.
  The second layer repeats the first on its result. So the kernel's result array is the reference's final stage of the
  same arguments.

  The three frames: both kernel programs run as four segments — host operations, a region, host operations, a region —
  and the reference as a line of host operations; every weakly fair execution terminates with the arguments unchanged.
  The idealization rewrote no operation, so the conjunct relating the kernel to its idealization is trivial.
-/
import proofs.«120752_j51384988729581_1_alg».proof.Defs
import proofs.«120752_j51384988729581_1_alg».proof.Proof.Gen.Kernel
import proofs.«120752_j51384988729581_1_alg».proof.Proof.Gen.Kernel.Skeleton
import proofs.«120752_j51384988729581_1_alg».proof.Proof.Gen.Kernel.Launch
import proofs.«120752_j51384988729581_1_alg».proof.Proof.Gen.Kernel.Points
import proofs.«120752_j51384988729581_1_alg».proof.Proof.Gen.Kernel.Frame
import proofs.«120752_j51384988729581_1_alg».proof.Proof.Gen.KernelIdeal
import proofs.«120752_j51384988729581_1_alg».proof.Proof.Gen.KernelIdeal.Skeleton
import proofs.«120752_j51384988729581_1_alg».proof.Proof.Gen.KernelIdeal.Launch
import proofs.«120752_j51384988729581_1_alg».proof.Proof.Gen.KernelIdeal.Points
import proofs.«120752_j51384988729581_1_alg».proof.Proof.Gen.KernelIdeal.Frame
import proofs.«120752_j51384988729581_1_alg».proof.Proof.Gen.ReferenceIdeal
import proofs.«120752_j51384988729581_1_alg».proof.Proof.Gen.Pre_finite_inputs
import proofs.«120752_j51384988729581_1_alg».proof.Proof.Gen.ReferenceIdeal.Run
import proofs.«120752_j51384988729581_1_alg».proof.Proof.Gen.ReferenceIdeal.Read
import proofs.«120752_j51384988729581_1_alg».proof.Proof.KernelBoundary
import proofs.«120752_j51384988729581_1_alg».proof.Proof.KernelStages
import Idealize.ShloMosaic.Adequacy
import Idealize.ShloMosaic.Init

noncomputable section

namespace Cert.Proof

open Idealize.ShloMosaic Idealize.ShloMosaic.TcCoe Idealize.SL.Sem

/-- The word-level kernel program runs, and its arguments end unchanged. -/
theorem frame_kernel : Cert.frame_Kernel := fun m ρ _ => Cert.Kernel.Gen.frame m ρ

/-- The idealized kernel program runs, and its arguments end unchanged. -/
theorem frame_kernelIdeal : Cert.frame_KernelIdeal := fun m ρ _ => Cert.KernelIdeal.Gen.frame m ρ

/-- The reference runs, and its arguments end unchanged: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both idealized programs end at the reference's final stage of the
    kernel's launch arguments: the kernel's run read at its last boundary (KernelBoundary, KernelStages), the
    reference's run read stage by stage. -/
theorem algebraic : Cert.algebraic_KernelIdeal_ReferenceIdeal := by
  intro m ρ m' ρ' _ hagree
  refine ⟨fun c => Cert.ReferenceIdeal.Read.val_main_v61 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono (fun r h c =>
      ⟨(h c _ (Cert.KernelIdeal.Gen.mem_uc Cert.KernelIdeal.main_v49 (by decide))).trans (Cert.KernelIdeal.Stages.result m ρ c),
       (h c _ (Cert.KernelIdeal.Gen.mem_uc Cert.KernelIdeal.main_arg0 (by decide))).trans (Cert.KernelIdeal.Gen.W4_main_arg0 m ρ c),
       (h c _ (Cert.KernelIdeal.Gen.mem_uc Cert.KernelIdeal.main_arg1 (by decide))).trans (Cert.KernelIdeal.Gen.W4_main_arg1 m ρ c),
       (h c _ (Cert.KernelIdeal.Gen.mem_uc Cert.KernelIdeal.main_arg2 (by decide))).trans (Cert.KernelIdeal.Gen.W4_main_arg2 m ρ c),
       (h c _ (Cert.KernelIdeal.Gen.mem_uc Cert.KernelIdeal.main_arg3 (by decide))).trans (Cert.KernelIdeal.Gen.W4_main_arg3 m ρ c),
       (h c _ (Cert.KernelIdeal.Gen.mem_uc Cert.KernelIdeal.main_arg4 (by decide))).trans (Cert.KernelIdeal.Gen.W4_main_arg4 m ρ c),
       (h c _ (Cert.KernelIdeal.Gen.mem_uc Cert.KernelIdeal.main_arg5 (by decide))).trans (Cert.KernelIdeal.Gen.W4_main_arg5 m ρ c),
       (h c _ (Cert.KernelIdeal.Gen.mem_uc Cert.KernelIdeal.main_arg6 (by decide))).trans (Cert.KernelIdeal.Gen.W4_main_arg6 m ρ c)⟩)
      (Cert.KernelIdeal.Boundary.run_last (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v61_eq, (hagree c).1, (hagree c).2.1, (hagree c).2.2.1, (hagree c).2.2.2.1,
      (hagree c).2.2.2.2.1, (hagree c).2.2.2.2.2.1, (hagree c).2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
